-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x768 : Shape := ⟨2, ![128, 768]⟩
abbrev S768 : Shape := ⟨1, ![768]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x768 : S_.BroadcastsInDim S128x768 (![] : Fin 0 → Fin S128x768.rank)
  reducesTo_S128x768_S_d0_1 : S128x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S128 .f32) (main_arg6 : FVec F S128x768 .f32) (main_arg7 : FVec F S768 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x768 .f32 := Host.absf main_arg6
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) (main_arg6 : FVec F S128x768 .f32) (main_arg7 : FVec F S768 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x768 : Shape := ⟨2, ![128, 768]⟩
abbrev S768 : Shape := ⟨1, ![768]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S1x768 : Shape := ⟨2, ![1, 768]⟩
abbrev S50000x768 : Shape := ⟨2, ![50000, 768]⟩
abbrev S2000x768 : Shape := ⟨2, ![2000, 768]⟩

abbrev nBuf : Space → Nat
  | .hbm => 99
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x768, .f32⟩
  | .hbm, ⟨7, _⟩ => ⟨S768, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x512, .bf16⟩
  | .hbm, ⟨49, _⟩ => ⟨S512x256, .bf16⟩
  | .hbm, ⟨50, _⟩ => ⟨S50000x256, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .bf16⟩
  | .hbm, ⟨74, _⟩ => ⟨S256x128, .bf16⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S50000x128, .bf16⟩
  | .hbm, ⟨96, _⟩ => ⟨S128x768, .bf16⟩
  | .hbm, ⟨97, _⟩ => ⟨S1x768, .f32⟩
  | .hbm, ⟨98, _⟩ => ⟨S50000x768, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .bf16⟩
  | .local _ .vmem, ⟨6, _⟩ => ⟨S2000x256, .bf16⟩
  | .local _ .vmem, ⟨7, _⟩ => ⟨S256x128, .bf16⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S128x768, .bf16⟩
  | .local _ .vmem, ⟨13, _⟩ => ⟨S1x768, .f32⟩
  | .local _ .vmem, ⟨14, _⟩ => ⟨S2000x768, .f32⟩
  | .local _ .vmem, ⟨15, _⟩ => ⟨S2000x768, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S768_S1x768 : S768.ShapeCasts S1x768
  shapeCasts_S2000x128_S2000x128 : S2000x128.ShapeCasts S2000x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  inb_S2000x768_S2000x768_0_0 : ∀ a, (![0, 0] : Fin 2 → Nat) a + S2000x768.size a ≤ S2000x768.size a
  h_S2000x768 : 0 < S2000x768.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x768_S2000x768_1_0_0_1_n_n_wf : DotDims.WF S2000x128 S128x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x768.size a ≤ S128x768.size a
  hwx2_1 : ∀ i : grid2.Coords, EltTy.bits .bf16 = 32 ∨ (Rect.block (s := S128x768) S128x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x768.size a ≤ S50000x768.size a
  hwx2_3 : ∀ i : grid2.Coords, EltTy.bits .f32 = 32 ∨ (Rect.block (s := S50000x768) S2000x768.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf

abbrev win0_0 : Pipeline.Window sig grid0 :=
  Pipeline.Window.ofSpec (Memref.whole main_v30) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S128x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S2000x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x768 : Shape := ⟨2, ![128, 768]⟩
abbrev S768 : Shape := ⟨1, ![768]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S50000x768 : Shape := ⟨2, ![50000, 768]⟩
abbrev S1x768 : Shape := ⟨2, ![1, 768]⟩

abbrev nBuf : Space → Nat
  | .hbm => 128
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x768, .f32⟩
  | .hbm, ⟨7, _⟩ => ⟨S768, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S50000x256, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000, .f32⟩
  | .hbm, ⟨104, _⟩ => ⟨S850000, .f32⟩
  | .hbm, ⟨105, _⟩ => ⟨S_, .i32⟩
  | .hbm, ⟨106, _⟩ => ⟨S850000, .i32⟩
  | .hbm, ⟨107, _⟩ => ⟨S850000, .i1⟩
  | .hbm, ⟨108, _⟩ => ⟨S_, .i32⟩
  | .hbm, ⟨109, _⟩ => ⟨S850000, .i32⟩
  | .hbm, ⟨110, _⟩ => ⟨S850000, .i32⟩
  | .hbm, ⟨111, _⟩ => ⟨S850000, .i32⟩
  | .hbm, ⟨112, _⟩ => ⟨S850000x1, .i32⟩
  | .hbm, ⟨113, _⟩ => ⟨S850000x128, .f32⟩
  | .hbm, ⟨114, _⟩ => ⟨S850000x1, .f32⟩
  | .hbm, ⟨115, _⟩ => ⟨S850000x128, .f32⟩
  | .hbm, ⟨116, _⟩ => ⟨S850000x128, .f32⟩
  | .hbm, ⟨117, _⟩ => ⟨S_, .f32⟩
  | .hbm, ⟨118, _⟩ => ⟨S50000x128, .f32⟩
  | .hbm, ⟨119, _⟩ => ⟨S850000x1, .i32⟩
  | .hbm, ⟨120, _⟩ => ⟨S50000x128, .f32⟩
  | .hbm, ⟨121, _⟩ => ⟨S1x128, .f32⟩
  | .hbm, ⟨122, _⟩ => ⟨S50000x128, .f32⟩
  | .hbm, ⟨123, _⟩ => ⟨S50000x128, .f32⟩
  | .hbm, ⟨124, _⟩ => ⟨S50000x768, .f32⟩
  | .hbm, ⟨125, _⟩ => ⟨S1x768, .f32⟩
  | .hbm, ⟨126, _⟩ => ⟨S50000x768, .f32⟩
  | .hbm, ⟨127, _⟩ => ⟨S50000x768, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x768_S50000x768_1_0_0_1_n_n_wf : DotDims.WF S50000x128 S128x768 S50000x768 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x768_S50000x768_1_0_0_1_n_n : DotDims S50000x128 S128x768 S50000x768 where
  lhsContracting := [1]
  rhsContracting := [0]
  lhsNonContracting := [0]
  rhsNonContracting := [1]
  lhsBatch := []
  rhsBatch := []
  wf := dot_S50000x128_S128x768_S50000x768_1_0_0_1_n_n_wf

class Facts : Prop extends Facts₀ where

variable [Facts]
-- ==== Proof.KernelRun.lean ====
/-
  The idealized kernel's run with its result named.

  @main is ten segments: three stretches of host operations, the first matrix product, three more stretches, the
  second product, one stretch, the third product with its bias. The generated frame follows the buffer contents
  through them as a fold, `W0` (launch) … `W10` (return), and closes with "the arguments end as launched". The same
  run also says what every unscoped buffer holds at the return, namely `W10` there; kept for the result buffer
  `main_v72`, that is the statement a value proof starts from: the result array is `W10 m ρ c main_v72`.
-/
import proofs.«140826_j4827543241130_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's launch theorem for several regions are found by unifying its conclusion
-- with this statement, which takes unfolding plain definitions in a metavariable's type
set_option backward.isDefEq.respectTransparency.types false in
/-- Every weakly fair execution of @main terminates without a fault; the result buffer then holds the last
    boundary's contents `W10` at `main_v72`, and the eight arguments what they held at launch. -/
theorem run : θ_run defs (onTc (τ := τ) (main (F := F))) ⟨m, fun _ => 0, ρ⟩ (fun r => ∀ c : Dev nD,
      r.2.mem ((c.tc : Thread nD τ).loc main_v72) = W10 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no core holds a ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      -- the first thread state: the unscoped buffers at the launch contents, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      -- the last thread state holds every unscoped buffer at `W10`: read them all against the final state
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v72 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.KernelEntry.lean ====
/-
  The kernel's host operations before and around the first product, in the reference's terms (at any float instance).

  Both programs start with the same lines: the two rows of the edge index with the self-loops appended (sources and
  targets), the degree of every node as a scatter-add of ones over the targets, its guarded reciprocal square root, and the
  weight of every edge as the product of that quantity at its two ends. The kernel computes them once, in the three
  stretches of host operations before its first product; read at the buffers that hold them, the fold of those stretches
  over the launch contents is, operation for operation, the reference's stage of the same name over the edge index. The
  first product's operands are the feature matrix and the first weight matrix, narrowed. None of these buffers is
  written again, so each still holds the same contents after the first product.
-/
import proofs.«140826_j4827543241130_1_alg».proof.Proof.Gen.KernelIdeal.Frame
import proofs.«140826_j4827543241130_1_alg».proof.Proof.RefRead
import proofs.«140826_j4827543241130_1_alg».proof.Proof.LibReadThrough

set_option maxRecDepth 16384

noncomputable section

namespace Cert.KernelIdeal.Entry

open Idealize.ShloMosaic Idealize.ShloMosaic.TcCoe Idealize.SL.Sem
open Cert.KernelIdeal Cert.KernelIdeal.Gen Cert.ReferenceIdeal.ReadP

variable {F : FTy → Type} [FloatOps F]
variable (m : (ℓ : Loc nD τ sig) → Buf (Elt F) ℓ) (ρ : Dev nD → PrngReg) (c : Dev nD)

/-- The eight arguments as launched on core `c`, typed as arrays. -/
abbrev features : FVec F S50000x512 .f32 := m ((c : Thread nD τ).loc main_arg0)
abbrev edges : IVec S2x800000 32 := m ((c : Thread nD τ).loc main_arg1)
abbrev weight1 : FVec F S512x256 .f32 := m ((c : Thread nD τ).loc main_arg2)
abbrev bias1 : FVec F S256 .f32 := m ((c : Thread nD τ).loc main_arg3)
abbrev weight2 : FVec F S256x128 .f32 := m ((c : Thread nD τ).loc main_arg4)
abbrev bias2 : FVec F S128 .f32 := m ((c : Thread nD τ).loc main_arg5)
abbrev weightP : FVec F S128x768 .f32 := m ((c : Thread nD τ).loc main_arg6)
abbrev biasP : FVec F S768 .f32 := m ((c : Thread nD τ).loc main_arg7)

/-- The fold of the three stretches before the first product, from the launch contents. -/
theorem W3_eq : W3 m ρ c = StableHlo.after hostOps0_2 (StableHlo.after hostOps0_1 (StableHlo.after hostOps0 (W0 m ρ c))) := rfl

set_option maxHeartbeats 4000000 in
/-- The sources: row 0 of the edge index, then every node once. -/
theorem sources_W3 : W3 m ρ c (Proc.devRef .tc main_v3) = val_main_v3 (F := F) (edges m c) := by
  rw [W3_eq]
  after_results_through
  rfl

set_option maxHeartbeats 4000000 in
/-- The targets: row 1 of the edge index, then every node once. -/
theorem targets_W3 : W3 m ρ c (Proc.devRef .tc main_v6) = val_main_v6 (F := F) (edges m c) := by
  rw [W3_eq]
  after_results_through
  rfl

set_option maxHeartbeats 16000000 in
/-- The edge weights: the guarded reciprocal square root of the degree at the source times the same at the target. -/
theorem weights_W3 : W3 m ρ c (Proc.devRef .tc main_v29) = val_main_v30 (F := F) (edges m c) := by
  rw [W3_eq]
  after_results_through
  rfl

set_option maxHeartbeats 4000000 in
/-- The first product's left operand: the feature matrix, narrowed. -/
theorem features_W3 : (W3 m ρ c (Proc.devRef .tc main_v30) : FVec F S50000x512 .bf16)
    = truncf .bf16 (features m c) bitsLt_bf16_f32 := by
  rw [W3_eq]
  after_results_through

set_option maxHeartbeats 4000000 in
/-- The first product's right operand: the first weight matrix, narrowed. -/
theorem weight1_W3 : (W3 m ρ c (Proc.devRef .tc main_v31) : FVec F S512x256 .bf16)
    = truncf .bf16 (weight1 m c) bitsLt_bf16_f32 := by
  rw [W3_eq]
  after_results_through

/-! The first product writes its output only: the other buffers pass through it. -/

theorem sources_W4 : W4 m ρ c (Proc.devRef .tc main_v3) = val_main_v3 (F := F) (edges m c) :=
  (W4_of_ne m ρ c main_v3 (by decide)).trans (sources_W3 m ρ c)

theorem targets_W4 : W4 m ρ c (Proc.devRef .tc main_v6) = val_main_v6 (F := F) (edges m c) :=
  (W4_of_ne m ρ c main_v6 (by decide)).trans (targets_W3 m ρ c)

theorem weights_W4 : W4 m ρ c (Proc.devRef .tc main_v29) = val_main_v30 (F := F) (edges m c) :=
  (W4_of_ne m ρ c main_v29 (by decide)).trans (weights_W3 m ρ c)

set_option maxHeartbeats 4000000 in
/-- An argument no operation writes still holds its launch contents after the first product. -/
theorem arg_W4 (b : Ref sig .tc) (hb : b = main_arg3 ∨ b = main_arg4 ∨ b = main_arg5 ∨ b = main_arg6 ∨ b = main_arg7) :
    W4 m ρ c (Proc.devRef .tc b) = m ((c : Thread nD τ).loc b) := by
  rcases hb with rfl | rfl | rfl | rfl | rfl <;>
  · rw [W4_of_ne m ρ c _ (by decide), W3_eq]
    after_results_through

end Cert.KernelIdeal.Entry

end
-- ==== Proof.KernelLayer1.lean ====
/-
  From the first product to the second: one graph-convolution layer's host operations, in the reference's terms (at any
  float instance).

  After the first product the kernel gathers its rows at the (wrapped) sources, weighs every gathered row by its edge's
  weight, adds the rows up per target (a scatter-add into zeros), adds the first bias to every row and rectifies; the
  rectified matrix and the second weight matrix, both narrowed, are the second product's operands. The reference applies
  the same operations, in the same order, to its own first product. So if the first product's output is the reference's
  (`h`), the second product's left operand is the reference's rectified first layer, narrowed. The edge lists, the edge
  weights and the arguments pass through these stretches and through the second product untouched; the reference computes
  the edge weights a second time for its second layer, by the same operations, so that stage is the first one again.
-/
import proofs.«140826_j4827543241130_1_alg».proof.Proof.KernelEntry

set_option maxRecDepth 16384

noncomputable section

namespace Cert.KernelIdeal.Layer1

open Idealize.ShloMosaic Idealize.ShloMosaic.TcCoe Idealize.SL.Sem
open Cert.KernelIdeal Cert.KernelIdeal.Gen Cert.KernelIdeal.Entry Cert.ReferenceIdeal.ReadP

variable {F : FTy → Type} [FloatOps F]
variable (m : (ℓ : Loc nD τ sig) → Buf (Elt F) ℓ) (ρ : Dev nD → PrngReg) (c : Dev nD)

/-- The fold of the three stretches between the first and the second product, from the first product's exit. -/
theorem W7_eq : W7 m ρ c = StableHlo.after hostOps1_2 (StableHlo.after hostOps1_1 (StableHlo.after hostOps1 (W4 m ρ c))) := rfl

set_option maxHeartbeats 16000000 in
/-- The second product's left operand is the reference's rectified first layer, narrowed. -/
theorem hidden_W7
    (h : W4 m ρ c (Proc.devRef .tc main_v32) = val_main_v7 (F := F) (features m c) (weight1 m c)) :
    (W7 m ρ c (Proc.devRef .tc main_v50) : FVec F S50000x256 .bf16)
      = truncf .bf16 (val_main_v47 (F := F) (features m c) (edges m c) (weight1 m c) (bias1 m c)) bitsLt_bf16_f32 := by
  rw [W7_eq]
  after_results_through
  rw [h, sources_W4, targets_W4, weights_W4, arg_W4 m ρ c main_arg3 (Or.inl rfl)]
  rfl

set_option maxHeartbeats 4000000 in
/-- Its right operand: the second weight matrix, narrowed. -/
theorem weight2_W7 : (W7 m ρ c (Proc.devRef .tc main_v51) : FVec F S256x128 .bf16)
    = truncf .bf16 (weight2 m c) bitsLt_bf16_f32 := by
  rw [W7_eq]
  after_results_through
  rw [arg_W4 m ρ c main_arg4 (Or.inr (Or.inl rfl))]

/-! The stretches write their own buffers and the second product its output: the rest passes through. -/

set_option maxHeartbeats 4000000 in
theorem sources_W8 : W8 m ρ c (Proc.devRef .tc main_v3) = val_main_v3 (F := F) (edges m c) := by
  rw [W8_of_ne m ρ c main_v3 (by decide), W7_eq]
  after_results_through
  exact sources_W4 m ρ c

set_option maxHeartbeats 4000000 in
theorem targets_W8 : W8 m ρ c (Proc.devRef .tc main_v6) = val_main_v6 (F := F) (edges m c) := by
  rw [W8_of_ne m ρ c main_v6 (by decide), W7_eq]
  after_results_through
  exact targets_W4 m ρ c

set_option maxHeartbeats 16000000 in
/-- The reference's second computation of the edge weights is its first. -/
theorem weights_again (x1 : (⟨Cert.ReferenceIdeal.S2x800000, .i32⟩ : BufTy).Contents (Elt F)) :
    val_main_v71 (F := F) x1 = val_main_v30 (F := F) x1 := rfl

set_option maxHeartbeats 4000000 in
theorem weights_W8 : W8 m ρ c (Proc.devRef .tc main_v29) = val_main_v71 (F := F) (edges m c) := by
  rw [W8_of_ne m ρ c main_v29 (by decide), W7_eq, weights_again]
  after_results_through
  exact weights_W4 m ρ c

set_option maxHeartbeats 4000000 in
/-- An argument still holds its launch contents after the second product. -/
theorem arg_W8 (b : Ref sig .tc) (hb : b = main_arg5 ∨ b = main_arg6 ∨ b = main_arg7) :
    W8 m ρ c (Proc.devRef .tc b) = m ((c : Thread nD τ).loc b) := by
  rcases hb with rfl | rfl | rfl
  · rw [W8_of_ne m ρ c _ (by decide), W7_eq]
    after_results_through
    exact arg_W4 m ρ c main_arg5 (Or.inr (Or.inr (Or.inl rfl)))
  · rw [W8_of_ne m ρ c _ (by decide), W7_eq]
    after_results_through
    exact arg_W4 m ρ c main_arg6 (Or.inr (Or.inr (Or.inr (Or.inl rfl))))
  · rw [W8_of_ne m ρ c _ (by decide), W7_eq]
    after_results_through
    exact arg_W4 m ρ c main_arg7 (Or.inr (Or.inr (Or.inr (Or.inr rfl))))

end Cert.KernelIdeal.Layer1

end
-- ==== Proof.KernelLayer2.lean ====
/-
  From the second product to the last: the second graph-convolution layer's host operations, in the reference's terms (at
  any float instance).

  After the second product the kernel gathers its rows at the sources, weighs them by the edge weights, adds them up per
  target and adds the second bias; that matrix and the projection matrix, both narrowed, and the projection bias viewed as
  one row are the last product's operands. The reference applies the same operations to its own second product. So if the
  second product's output is the reference's (`h`), the last product's left operand is the reference's second layer,
  narrowed.
-/
import proofs.«140826_j4827543241130_1_alg».proof.Proof.KernelLayer1

set_option maxRecDepth 16384

noncomputable section

namespace Cert.KernelIdeal.Layer2

open Idealize.ShloMosaic Idealize.ShloMosaic.TcCoe Idealize.SL.Sem
open Cert.KernelIdeal Cert.KernelIdeal.Gen Cert.KernelIdeal.Entry Cert.KernelIdeal.Layer1 Cert.ReferenceIdeal.ReadP

variable {F : FTy → Type} [FloatOps F]
variable (m : (ℓ : Loc nD τ sig) → Buf (Elt F) ℓ) (ρ : Dev nD → PrngReg) (c : Dev nD)

/-- The fold of the stretch between the second and the last product, from the second product's exit. -/
theorem W9_eq : W9 m ρ c = StableHlo.after hostOps2 (W8 m ρ c) := rfl

set_option maxHeartbeats 16000000 in
/-- The last product's left operand is the reference's second layer, narrowed. -/
theorem hidden_W9
    (h : W8 m ρ c (Proc.devRef .tc main_v52)
      = val_main_v48 (F := F) (features m c) (edges m c) (weight1 m c) (bias1 m c) (weight2 m c)) :
    (W9 m ρ c (Proc.devRef .tc main_v69) : FVec F S50000x128 .bf16)
      = truncf .bf16 (val_main_v87 (F := F) (features m c) (edges m c) (weight1 m c) (bias1 m c) (weight2 m c) (bias2 m c))
          bitsLt_bf16_f32 := by
  rw [W9_eq]
  after_results_through
  rw [h, sources_W8, targets_W8, weights_W8, arg_W8 m ρ c main_arg5 (Or.inl rfl)]
  rfl

set_option maxHeartbeats 4000000 in
/-- Its right operand: the projection matrix, narrowed. -/
theorem weightP_W9 : (W9 m ρ c (Proc.devRef .tc main_v70) : FVec F S128x768 .bf16)
    = truncf .bf16 (weightP m c) bitsLt_bf16_f32 := by
  rw [W9_eq]
  after_results_through
  rw [arg_W8 m ρ c main_arg6 (Or.inr (Or.inl rfl))]

set_option maxHeartbeats 4000000 in
/-- Its bias operand: the projection bias viewed as one row. -/
theorem biasP_W9 : (W9 m ρ c (Proc.devRef .tc main_v71) : FVec F S1x768 .f32)
    = shapeCast S1x768 (biasP m c) shapeCasts_S768_S1x768 := by
  rw [W9_eq]
  after_results_through
  rw [arg_W8 m ρ c main_arg7 (Or.inr (Or.inr rfl))]
  rfl

end Cert.KernelIdeal.Layer2

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibMatProd.lean ====
/-
  The product of two matrices on the extended reals as ONE whole-array function, and the two operations that compute it
  (any extents).

  For A : [a, k] and B : [k, b] the entry (p, q) of A·B is the sum over j of A (p, j) · B (j, q). At the exact instance
  the matrix unit's product into a zero accumulator and the host's dot product, both with the plain dimension numbers
  (contract the left operand's second axis against the right operand's first, no batch axis), are this function of their
  operands; a narrowing of the operands' float format beforehand changes nothing, being the identity on extended reals.
-/
import proofs.«140826_j4827543241130_1_alg».proof.Proof.LibMatmul
import Idealize.ShloMosaic.Lib.Pipeline.Value

noncomputable section

open scoped BigOperators

namespace Cert.Products

open Idealize.ShloMosaic Idealize.ShloMosaic.ValueIdx

/-- Entry (p, q) of A·B: the sum over j of A (p, j) · B (j, q). -/
def matProd {a k b : ℕ} (A : (⟨2, ![a, k]⟩ : Shape).Idx → EReal) (B : (⟨2, ![k, b]⟩ : Shape).Idx → EReal) :
    (⟨2, ![a, b]⟩ : Shape).Idx → EReal :=
  fun i => ∑ j : Fin k, A (ix2 (i 0) j) * B (ix2 j (i 1))

theorem matProd_ix2 {a k b : ℕ} (A : (⟨2, ![a, k]⟩ : Shape).Idx → EReal) (B : (⟨2, ![k, b]⟩ : Shape).Idx → EReal)
    (p : Fin a) (q : Fin b) : matProd A B (ix2 p q) = ∑ j : Fin k, A (ix2 p j) * B (ix2 j q) := rfl

section Plain

variable {a k b : ℕ} (d : DotDims ⟨2, ![a, k]⟩ ⟨2, ![k, b]⟩ ⟨2, ![a, b]⟩)
variable (hl : d.lhsContracting = [1]) (hr : d.rhsContracting = [0]) (hln : d.lhsNonContracting = [0])
variable (hrn : d.rhsNonContracting = [1]) (hlb : d.lhsBatch = []) (hrb : d.rhsBatch = [])
variable {φ₁ φ₂ : FTy}

include hl hr hln hrn hlb hrb in
/-- The matrix unit's product into the zero accumulator is the product. -/
theorem matmul_zero_eq (prec : Option ContractPrecision) (lhs : FVec Ideal ⟨2, ![a, k]⟩ φ₁) (rhs : FVec Ideal ⟨2, ![k, b]⟩ φ₂) :
    FloatOps.matmul d prec lhs rhs (constant ⟨2, ![a, b]⟩ .f32 0x00000000#32) = matProd lhs rhs := by
  funext i
  obtain ⟨p, q, rfl⟩ : ∃ (p : Fin a) (q : Fin b), i = ix2 p q := ⟨i 0, i 1, eq_ix2 i⟩
  exact matmul_zero_ix2 d hl hr hln hrn hlb hrb prec lhs rhs p q

include hl hr hln hrn hlb hrb in
/-- The host's dot product is the product. -/
theorem dotGeneral_eq (prec : Option ContractPrecision) (sched : HostSchedule) (lhs : FVec Ideal ⟨2, ![a, k]⟩ φ₁)
    (rhs : FVec Ideal ⟨2, ![k, b]⟩ φ₂) :
    FloatOps.dotGeneral d prec sched lhs rhs = matProd lhs rhs := by
  funext i
  obtain ⟨p, q, rfl⟩ : ∃ (p : Fin a) (q : Fin b), i = ix2 p q := ⟨i 0, i 1, eq_ix2 i⟩
  exact dotGeneral_ix2 d hl hr hln hrn hlb hrb prec sched lhs rhs p q

end Plain

/-- Narrowing both operands to bf16 first changes nothing: on extended reals the narrowing is the identity. -/
theorem matProd_narrowed {a k b : ℕ} (A : FVec Ideal ⟨2, ![a, k]⟩ .f32) (B : FVec Ideal ⟨2, ![k, b]⟩ .f32)
    (hA hB : FTy.bf16.bits < FTy.f32.bits) :
    matProd (truncf .bf16 A hA) (truncf .bf16 B hB) = matProd A B := rfl

/-- A product depends on its left operand only through the rows it reads: if A' (p', ·) is row p of A, the entries
    (p', q) of A'·B and (p, q) of A·B agree. -/
theorem matProd_row {a a' k b : ℕ} (A : (⟨2, ![a, k]⟩ : Shape).Idx → EReal) (A' : (⟨2, ![a', k]⟩ : Shape).Idx → EReal)
    (B : (⟨2, ![k, b]⟩ : Shape).Idx → EReal) (p : Fin a) (p' : Fin a') (q : Fin b)
    (h : ∀ j : Fin k, A' (ix2 p' j) = A (ix2 p j)) : matProd A' B (ix2 p' q) = matProd A B (ix2 p q) := by
  rw [matProd_ix2, matProd_ix2]
  exact Finset.sum_congr rfl fun j _ => by rw [h j]

end Cert.Products

end
-- ==== Proof.FirstProduct.lean ====
/-
  The first matrix product, x·W₁: what its output array holds after the call.

  The call's grid has 25 points. Point t stages rows 2000·t … 2000·t + 1999 of the left operand (all 512 columns) and the
  whole right operand, multiplies them on the matrix unit into a zero accumulator and writes the
  2000 × 256 result back as rows 2000·t … 2000·t + 1999 of the output. Entry (r, q) of a product reads only row r of the left operand, so
  what point t writes back is block t of ONE array, the product of the two whole operands; the 25 blocks tile the
  50000 rows, so that array is what the output holds after the call — whatever the buffers held when the call was
  entered (`V`, a parameter here).
-/
import proofs.«140826_j4827543241130_1_alg».proof.Proof.Gen.KernelIdeal.Frame
import proofs.«140826_j4827543241130_1_alg».proof.Proof.LibMatProd
import Idealize.ShloMosaic.Lib.ValueLayout

set_option maxRecDepth 16384

noncomputable section

open scoped BigOperators

namespace Cert.KernelIdeal.FirstProduct

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Products

variable (V : (c : Dev nD) → (b : Ref sig .tc) → Buf (Elt Ideal) ((c : Thread nD τ).loc b))

/-- The call's two operand arrays and its output array as the call finds them, typed as arrays of extended reals. -/
abbrev lhs (c : Dev nD) : S50000x512.Idx → EReal := V c main_v30
abbrev rhs (c : Dev nD) : S512x256.Idx → EReal := V c main_v31

theorem zeros : (![0, 0] : Fin 2 → Nat) = fun _ => 0 := funext fun a => by fin_cases a <;> rfl

/-- What the output array holds after the call, as a function of the two operand arrays. -/
def whole (A : S50000x512.Idx → EReal) (B : S512x256.Idx → EReal) : S50000x256.Idx → EReal :=
  matProd A B

/-- The body's stored value: the product of the two loaded blocks. -/
theorem stored (x0 : FVec Ideal S2000x512 .bf16) (x1 : FVec Ideal S512x256 .bf16) :
    k0_pay1 (F := Ideal) x0 x1 = matProd x0 x1 := by
  unfold k0_pay1
  show FloatOps.matmul (F := Ideal) dot_S2000x512_S512x256_S2000x256_1_0_0_1_n_n none
      (shapeCast S2000x512 x0 shapeCasts_S2000x512_S2000x512) (shapeCast S512x256 x1 shapeCasts_S512x256_S512x256)
      (constant (F := Ideal) S2000x256 .f32 0x00000000#32) = _
  rw [shapeCast_self, shapeCast_self]
  exact matmul_zero_eq dot_S2000x512_S512x256_S2000x256_1_0_0_1_n_n rfl rfl rfl rfl rfl rfl none x0 x1

/-- The printed index maps, decided over the 25 points: the left operand's and the output's blocks move together
    down the rows, the right operand's block stays put, and the row block number is the point's. -/
theorem index_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of `whole` of the operand arrays as the call finds them. -/
theorem written_back (c : Dev nD) (t : Fin cfg0.N) :
    (dat0 V c).flushed 2 t
      = ((cfg0.win 2).blk t).view.read (Elt Ideal) (whole (lhs V c) (rhs V c)) := by
  show (cfg0.win 2).cut (grid0.coords t) ((dat0 V c).after 2 t) = _
  rw [after0_2]
  unfold out0_2
  rw [View.canon_unit_zero zeros]
  simp only [View.ld_unit_zero (S := S2000x512) zeros, View.ld_unit_zero (S := S512x256) zeros]
  rw [stored]
  obtain ⟨e0, e1, e2, e3, e6, e7⟩ := index_facts t
  funext y
  show (∑ j : Fin 512, lhs V c (((cfg0.win 0).blk t).view.emb (ix2 (y 0) j)) * rhs V c (((cfg0.win 1).blk t).view.emb (ix2 j (y 1))))
    = ∑ j : Fin 512, lhs V c (ix2 ((((cfg0.win 2).blk t).view.emb y) 0) j) * rhs V c (ix2 j ((((cfg0.win 2).blk t).view.emb y) 1))
  have hy0 : (y 0).val < 2000 := (y 0).isLt
  have hy1 : (y 1).val < 256 := (y 1).isLt
  have hA : ∀ j : Fin 512, ((cfg0.win 0).blk t).view.emb (ix2 (y 0) j) = ix2 ((((cfg0.win 2).blk t).view.emb y) 0) j := fun j => by
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 512 + 1 * j.val = j.val; omega
  have hB : ∀ j : Fin 512, ((cfg0.win 1).blk t).view.emb (ix2 j (y 1)) = ix2 j ((((cfg0.win 2).blk t).view.emb y) 1) := fun j => by
    funext a; apply Fin.ext
    match a with
    | ⟨0, _⟩ => show win0_1.index t (0 : Fin 2) * 512 + 1 * j.val = j.val; omega
    | ⟨1, _⟩ => show win0_1.index t (1 : Fin 2) * 256 + 1 * (y 1).val = win0_2.index t (1 : Fin 2) * 256 + 1 * (y 1).val; omega
  exact Finset.sum_congr rfl fun j _ => congrArg₂ (· * ·) (congrArg (lhs V c) (hA j)) (congrArg (rhs V c) (hB j))

/-- An index of the output array is in point t's block iff each coordinate is in the block's range on its axis. -/
theorem in_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Row r lies in the block of point r / 2000: the 25 blocks tile the 50000 rows. -/
theorem tiled (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e0, e1, e2, e3, e6, e7⟩ := index_facts t
  have ht : t.val = (i 0).val / 2000 := rfl
  refine ⟨t, flush0_2 t, ?_⟩
  rw [in_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE OUTPUT ARRAY after the call is `whole` of the operand arrays as the call finds them. -/
theorem result (c : Dev nD) :
    (dat0 V c).arrAt 2 cfg0.N = whole (lhs V c) (rhs V c) :=
  (dat0 V c).arrAt_eq_of_cover 2 _ (fun t _ => written_back V c t) tiled

end Cert.KernelIdeal.FirstProduct

end
-- ==== Proof.SecondProduct.lean ====
/-
  The second matrix product, h·W₂ (h the rectified first layer): what its output array holds after the call.

  The call's grid has 25 points. Point t stages rows 2000·t … 2000·t + 1999 of the left operand (all 256 columns) and the
  whole right operand, multiplies them on the matrix unit into a zero accumulator and writes the
  2000 × 128 result back as rows 2000·t … 2000·t + 1999 of the output. Entry (r, q) of a product reads only row r of the left operand, so
  what point t writes back is block t of ONE array, the product of the two whole operands; the 25 blocks tile the
  50000 rows, so that array is what the output holds after the call — whatever the buffers held when the call was
  entered (`V`, a parameter here).
-/
import proofs.«140826_j4827543241130_1_alg».proof.Proof.Gen.KernelIdeal.Frame
import proofs.«140826_j4827543241130_1_alg».proof.Proof.LibMatProd
import Idealize.ShloMosaic.Lib.ValueLayout

set_option maxRecDepth 16384

noncomputable section

open scoped BigOperators

namespace Cert.KernelIdeal.SecondProduct

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Products

variable (V : (c : Dev nD) → (b : Ref sig .tc) → Buf (Elt Ideal) ((c : Thread nD τ).loc b))

/-- The call's two operand arrays and its output array as the call finds them, typed as arrays of extended reals. -/
abbrev lhs (c : Dev nD) : S50000x256.Idx → EReal := V c main_v50
abbrev rhs (c : Dev nD) : S256x128.Idx → EReal := V c main_v51

theorem zeros : (![0, 0] : Fin 2 → Nat) = fun _ => 0 := funext fun a => by fin_cases a <;> rfl

/-- What the output array holds after the call, as a function of the two operand arrays. -/
def whole (A : S50000x256.Idx → EReal) (B : S256x128.Idx → EReal) : S50000x128.Idx → EReal :=
  matProd A B

/-- The body's stored value: the product of the two loaded blocks. -/
theorem stored (x0 : FVec Ideal S2000x256 .bf16) (x1 : FVec Ideal S256x128 .bf16) :
    k1_pay1 (F := Ideal) x0 x1 = matProd x0 x1 := by
  unfold k1_pay1
  show FloatOps.matmul (F := Ideal) dot_S2000x256_S256x128_S2000x128_1_0_0_1_n_n none
      (shapeCast S2000x256 x0 shapeCasts_S2000x256_S2000x256) (shapeCast S256x128 x1 shapeCasts_S256x128_S256x128)
      (constant (F := Ideal) S2000x128 .f32 0x00000000#32) = _
  rw [shapeCast_self, shapeCast_self]
  exact matmul_zero_eq dot_S2000x256_S256x128_S2000x128_1_0_0_1_n_n rfl rfl rfl rfl rfl rfl none x0 x1

/-- The printed index maps, decided over the 25 points: the left operand's and the output's blocks move together
    down the rows, the right operand's block stays put, and the row block number is the point's. -/
theorem index_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of `whole` of the operand arrays as the call finds them. -/
theorem written_back (c : Dev nD) (t : Fin cfg1.N) :
    (dat1 V c).flushed 2 t
      = ((cfg1.win 2).blk t).view.read (Elt Ideal) (whole (lhs V c) (rhs V c)) := by
  show (cfg1.win 2).cut (grid1.coords t) ((dat1 V c).after 2 t) = _
  rw [after1_2]
  unfold out1_2
  rw [View.canon_unit_zero zeros]
  simp only [View.ld_unit_zero (S := S2000x256) zeros, View.ld_unit_zero (S := S256x128) zeros]
  rw [stored]
  obtain ⟨e0, e1, e2, e3, e6, e7⟩ := index_facts t
  funext y
  show (∑ j : Fin 256, lhs V c (((cfg1.win 0).blk t).view.emb (ix2 (y 0) j)) * rhs V c (((cfg1.win 1).blk t).view.emb (ix2 j (y 1))))
    = ∑ j : Fin 256, lhs V c (ix2 ((((cfg1.win 2).blk t).view.emb y) 0) j) * rhs V c (ix2 j ((((cfg1.win 2).blk t).view.emb y) 1))
  have hy0 : (y 0).val < 2000 := (y 0).isLt
  have hy1 : (y 1).val < 128 := (y 1).isLt
  have hA : ∀ j : Fin 256, ((cfg1.win 0).blk t).view.emb (ix2 (y 0) j) = ix2 ((((cfg1.win 2).blk t).view.emb y) 0) j := fun j => by
    funext a; apply Fin.ext
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 256 + 1 * j.val = j.val; omega
  have hB : ∀ j : Fin 256, ((cfg1.win 1).blk t).view.emb (ix2 j (y 1)) = ix2 j ((((cfg1.win 2).blk t).view.emb y) 1) := fun j => by
    funext a; apply Fin.ext
    match a with
    | ⟨0, _⟩ => show win1_1.index t (0 : Fin 2) * 256 + 1 * j.val = j.val; omega
    | ⟨1, _⟩ => show win1_1.index t (1 : Fin 2) * 128 + 1 * (y 1).val = win1_2.index t (1 : Fin 2) * 128 + 1 * (y 1).val; omega
  exact Finset.sum_congr rfl fun j _ => congrArg₂ (· * ·) (congrArg (lhs V c) (hA j)) (congrArg (rhs V c) (hB j))

/-- An index of the output array is in point t's block iff each coordinate is in the block's range on its axis. -/
theorem in_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v52).slice (win1_2.rect t)).set ↔ _
  rw [View.set_slice_whole, Rect.mem_set_unit]
  exact Iff.rfl

/-- Row r lies in the block of point r / 2000: the 25 blocks tile the 50000 rows. -/
theorem tiled (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e6, e7⟩ := index_facts t
  have ht : t.val = (i 0).val / 2000 := rfl
  refine ⟨t, flush1_2 t, ?_⟩
  rw [in_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE OUTPUT ARRAY after the call is `whole` of the operand arrays as the call finds them. -/
theorem result (c : Dev nD) :
    (dat1 V c).arrAt 2 cfg1.N = whole (lhs V c) (rhs V c) :=
  (dat1 V c).arrAt_eq_of_cover 2 _ (fun t _ => written_back V c t) tiled

end Cert.KernelIdeal.SecondProduct

end
-- ==== Proof.Projection.lean ====
/-
  The last matrix product with its bias, h₂·Wp + bp (h₂ the second layer): what its output array holds after the call.

  The call's grid has 25 points. Point t stages rows 2000·t … 2000·t + 1999 of the left operand (all 128 columns) and the
  whole right operand and the one bias row, multiplies the two on the matrix unit into a zero accumulator, adds the bias row to every row and writes the
  2000 × 768 result back as rows 2000·t … 2000·t + 1999 of the output. Entry (r, q) of a product reads only row r of the left operand, so
  what point t writes back is block t of ONE array, the product of the two whole operands plus the bias row at the column; the 25 blocks tile the
  50000 rows, so that array is what the output holds after the call — whatever the buffers held when the call was
  entered (`V`, a parameter here).
-/
import proofs.«140826_j4827543241130_1_alg».proof.Proof.Gen.KernelIdeal.Frame
import proofs.«140826_j4827543241130_1_alg».proof.Proof.LibMatProd
import Idealize.ShloMosaic.Lib.ValueLayout

set_option maxRecDepth 16384

noncomputable section

open scoped BigOperators

namespace Cert.KernelIdeal.Projection

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Products

variable (V : (c : Dev nD) → (b : Ref sig .tc) → Buf (Elt Ideal) ((c : Thread nD τ).loc b))

/-- The call's two operand arrays and its bias row as the call finds them, typed as arrays of extended reals. -/
abbrev lhs (c : Dev nD) : S50000x128.Idx → EReal := V c main_v69
abbrev rhs (c : Dev nD) : S128x768.Idx → EReal := V c main_v70
abbrev biasRow (c : Dev nD) : S1x768.Idx → EReal := V c main_v71

theorem zeros : (![0, 0] : Fin 2 → Nat) = fun _ => 0 := funext fun a => by fin_cases a <;> rfl

/-- What the output array holds after the call, as a function of the two operand arrays and the bias row: entry (r, q) is
    the product's plus the bias at q. -/
def whole (A : S50000x128.Idx → EReal) (B : S128x768.Idx → EReal) (bias : S1x768.Idx → EReal) : S50000x768.Idx → EReal :=
  fun i => matProd A B i + bias (ix2 (0 : Fin 1) (i 1))

/-- The body's stored value: the product of the two loaded blocks, plus the bias row on every row. -/
theorem stored (x0 : FVec Ideal S2000x128 .bf16) (x1 : FVec Ideal S128x768 .bf16) (x2 : FVec Ideal S1x768 .f32) :
    k2_pay1 (F := Ideal) x0 x1 x2 = fun j => matProd x0 x1 j + x2 (ix2 (0 : Fin 1) (j 1)) := by
  unfold k2_pay1
  funext j
  obtain ⟨p, q, rfl⟩ : ∃ (p : Fin 2000) (q : Fin 768), j = ix2 p q := ⟨j 0, j 1, eq_ix2 j⟩
  show FloatOps.matmul (F := Ideal) dot_S2000x128_S128x768_S2000x768_1_0_0_1_n_n none
      (shapeCast S2000x128 x0 shapeCasts_S2000x128_S2000x128) (shapeCast S128x768 x1 shapeCasts_S128x768_S128x768)
      (constant (F := Ideal) S2000x768 .f32 0x00000000#32) (ix2 p q)
    + broadcastTo S2000x768 (shapeCast S1x768 x2 shapeCasts_S1x768_S1x768) broadcasts_S1x768_S2000x768 (ix2 p q) = _
  rw [shapeCast_self, shapeCast_self, shapeCast_self, broadcastTo_1b_ab_apply,
    matmul_zero_eq dot_S2000x128_S128x768_S2000x768_1_0_0_1_n_n rfl rfl rfl rfl rfl rfl none x0 x1]

/-- The printed index maps, decided over the 25 points: the left operand's and the output's blocks move together
    down the rows, the right operand's and the bias row's blocks stay put, and the row block number is the point's. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of `whole` of the operand arrays as the call finds them. -/
theorem written_back (c : Dev nD) (t : Fin cfg2.N) :
    (dat2 V c).flushed 3 t
      = ((cfg2.win 3).blk t).view.read (Elt Ideal) (whole (lhs V c) (rhs V c) (biasRow V c)) := by
  show (cfg2.win 3).cut (grid2.coords t) ((dat2 V c).after 3 t) = _
  rw [after2_3]
  unfold out2_3
  rw [View.canon_unit_zero zeros]
  simp only [View.ld_unit_zero (S := S2000x128) zeros, View.ld_unit_zero (S := S128x768) zeros, View.ld_unit_zero (S := S1x768) zeros]
  rw [stored]
  obtain ⟨e0, e1, e2, e3, e4, e5, e6, e7⟩ := index_facts t
  funext y
  show (∑ j : Fin 128, lhs V c (((cfg2.win 0).blk t).view.emb (ix2 (y 0) j)) * rhs V c (((cfg2.win 1).blk t).view.emb (ix2 j (y 1))))
      + biasRow V c (((cfg2.win 2).blk t).view.emb (ix2 (0 : Fin 1) (y 1)))
    = (∑ j : Fin 128, lhs V c (ix2 ((((cfg2.win 3).blk t).view.emb y) 0) j) * rhs V c (ix2 j ((((cfg2.win 3).blk t).view.emb y) 1)))
      + biasRow V c (ix2 (0 : Fin 1) ((((cfg2.win 3).blk t).view.emb y) 1))
  have hy0 : (y 0).val < 2000 := (y 0).isLt
  have hy1 : (y 1).val < 768 := (y 1).isLt
  have hA : ∀ j : Fin 128, ((cfg2.win 0).blk t).view.emb (ix2 (y 0) j) = ix2 ((((cfg2.win 3).blk t).view.emb y) 0) j := fun j => by
    funext a; apply Fin.ext
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 128 + 1 * j.val = j.val; omega
  have hB : ∀ j : Fin 128, ((cfg2.win 1).blk t).view.emb (ix2 j (y 1)) = ix2 j ((((cfg2.win 3).blk t).view.emb y) 1) := fun j => by
    funext a; apply Fin.ext
    match a with
    | ⟨0, _⟩ => show win2_1.index t (0 : Fin 2) * 128 + 1 * j.val = j.val; omega
    | ⟨1, _⟩ => show win2_1.index t (1 : Fin 2) * 768 + 1 * (y 1).val = win2_3.index t (1 : Fin 2) * 768 + 1 * (y 1).val; omega
  have hb : ((cfg2.win 2).blk t).view.emb (ix2 (0 : Fin 1) (y 1)) = ix2 (0 : Fin 1) ((((cfg2.win 3).blk t).view.emb y) 1) := by
    funext a; apply Fin.ext
    match a with
    | ⟨0, _⟩ => show win2_2.index t (0 : Fin 2) * 1 + 1 * 0 = 0; omega
    | ⟨1, _⟩ => show win2_2.index t (1 : Fin 2) * 768 + 1 * (y 1).val = win2_3.index t (1 : Fin 2) * 768 + 1 * (y 1).val; omega
  exact congrArg₂ (· + ·)
    (Finset.sum_congr rfl fun j _ => congrArg₂ (· * ·) (congrArg (lhs V c) (hA j)) (congrArg (rhs V c) (hB j)))
    (congrArg (biasRow V c) hb)

/-- An index of the output array is in point t's block iff each coordinate is in the block's range on its axis. -/
theorem in_block (t : Fin cfg2.N) (i : S50000x768.Idx) :
    i ∈ ((cfg2.win 3).blk t).view.set ↔ ∀ a : Fin 2, win2_3.index t a * S2000x768.size a ≤ (i a).val ∧ (i a).val < win2_3.index t a * S2000x768.size a + S2000x768.size a := by
  show i ∈ ((View.whole main_v72).slice (win2_3.rect t)).set ↔ _
  rw [View.set_slice_whole, Rect.mem_set_unit]
  exact Iff.rfl

/-- Row r lies in the block of point r / 2000: the 25 blocks tile the 50000 rows. -/
theorem tiled (i : S50000x768.Idx) : ∃ t : Fin cfg2.N, (cfg2.win 3).flush t = true ∧ i ∈ ((cfg2.win 3).blk t).view.set := by
  have hi0 : (i 0).val < 50000 := (i 0).isLt
  have hi1 : (i 1).val < 768 := (i 1).isLt
  have hN : cfg2.N = 25 := N_2
  let t : Fin cfg2.N := ⟨(i 0).val / 2000, by rw [hN]; omega⟩
  obtain ⟨e0, e1, e2, e3, e4, e5, e6, e7⟩ := index_facts t
  have ht : t.val = (i 0).val / 2000 := rfl
  refine ⟨t, flush2_3 t, ?_⟩
  rw [in_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 768 ≤ (i 1).val ∧ (i 1).val < win2_3.index t (1 : Fin 2) * 768 + 768; omega

/-- THE OUTPUT ARRAY after the call is `whole` of the operand arrays as the call finds them. -/
theorem result (c : Dev nD) :
    (dat2 V c).arrAt 3 cfg2.N = whole (lhs V c) (rhs V c) (biasRow V c) :=
  (dat2 V c).arrAt_eq_of_cover 3 _ (fun t _ => written_back V c t) tiled

end Cert.KernelIdeal.Projection

end
-- ==== Proof.KernelValue.lean ====
/-
  The kernel's result is the reference's, on the extended reals.

  Three facts chain the two programs. Each of the kernel's three products leaves, in its output array, the product of its
  two whole operand arrays (the last one plus the bias row at the column): the blocks-to-array modules. On the extended
  reals the host's dot product is the same sum over the contracted index, and narrowing an operand's float format is
  the identity. And between the products both programs apply the same host operations in the same order. So, going down
  the program: the first product's output is the reference's first stage; hence the second product's left operand is the
  reference's rectified first layer and its output the reference's second product; hence the last product's left
  operand is the reference's second layer and its output, entry by entry, the reference's result — the sum over j of
  layer₂ (r, j) · Wp (j, q), plus bp q. No step uses more than the definitions of the operations: both sides are the same
  arrangement of sums and products, so nothing is asked of the inputs.
-/
import proofs.«140826_j4827543241130_1_alg».proof.Proof.KernelLayer2
import proofs.«140826_j4827543241130_1_alg».proof.Proof.FirstProduct
import proofs.«140826_j4827543241130_1_alg».proof.Proof.SecondProduct
import proofs.«140826_j4827543241130_1_alg».proof.Proof.Projection

set_option maxRecDepth 16384

noncomputable section

open scoped BigOperators

namespace Cert.KernelIdeal.Result

open Idealize.ShloMosaic Idealize.ShloMosaic.TcCoe Idealize.ShloMosaic.ValueIdx Idealize.SL.Sem
open Cert.KernelIdeal Cert.KernelIdeal.Gen Cert.KernelIdeal.Entry Cert.KernelIdeal.Layer1 Cert.KernelIdeal.Layer2
open Cert.ReferenceIdeal.ReadP Cert.Products

/-! ## The reference's three dot products are products -/

section Reference

variable (x0 : (⟨Cert.ReferenceIdeal.S50000x512, .f32⟩ : BufTy).Contents (Elt Ideal)) (x1 : (⟨Cert.ReferenceIdeal.S2x800000, .i32⟩ : BufTy).Contents (Elt Ideal))
  (x2 : (⟨Cert.ReferenceIdeal.S512x256, .f32⟩ : BufTy).Contents (Elt Ideal)) (x3 : (⟨Cert.ReferenceIdeal.S256, .f32⟩ : BufTy).Contents (Elt Ideal))
  (x4 : (⟨Cert.ReferenceIdeal.S256x128, .f32⟩ : BufTy).Contents (Elt Ideal)) (x5 : (⟨Cert.ReferenceIdeal.S128, .f32⟩ : BufTy).Contents (Elt Ideal))
  (x6 : (⟨Cert.ReferenceIdeal.S128x768, .f32⟩ : BufTy).Contents (Elt Ideal))

theorem ref_product1 : val_main_v7 (F := Ideal) x0 x2 = matProd x0 x2 := by
  unfold val_main_v7
  exact dotGeneral_eq Cert.ReferenceIdeal.dot_S50000x512_S512x256_S50000x256_1_0_0_1_n_n rfl rfl rfl rfl rfl rfl none .single x0 x2

theorem ref_product2 :
    val_main_v48 (F := Ideal) x0 x1 x2 x3 x4 = matProd (val_main_v47 (F := Ideal) x0 x1 x2 x3) x4 := by
  unfold val_main_v48
  exact dotGeneral_eq Cert.ReferenceIdeal.dot_S50000x256_S256x128_S50000x128_1_0_0_1_n_n rfl rfl rfl rfl rfl rfl none .single _ x4

theorem ref_product3 :
    val_main_v88 (F := Ideal) x0 x1 x2 x3 x4 x5 x6 = matProd (val_main_v87 (F := Ideal) x0 x1 x2 x3 x4 x5) x6 := by
  unfold val_main_v88
  exact dotGeneral_eq Cert.ReferenceIdeal.dot_S50000x128_S128x768_S50000x768_1_0_0_1_n_n rfl rfl rfl rfl rfl rfl none .single _ x6

end Reference

variable (m : (ℓ : Loc nD τ sig) → Buf (Elt Ideal) ℓ) (ρ : Dev nD → PrngReg) (c : Dev nD)

/-! ## Down the kernel's program -/

/-- The first product's output is the reference's first stage, x·W₁. -/
theorem product_W4 :
    W4 m ρ c (Proc.devRef .tc main_v32) = val_main_v7 (F := Ideal) (features m c) (weight1 m c) := by
  rw [ref_product1]
  refine (W4_arr m ρ c 2).trans ?_
  rw [FirstProduct.result (V3 m ρ) c]
  show matProd (W3 m ρ c (Proc.devRef .tc main_v30) : FVec Ideal S50000x512 .bf16)
    (W3 m ρ c (Proc.devRef .tc main_v31) : FVec Ideal S512x256 .bf16) = _
  rw [features_W3, weight1_W3]
  exact matProd_narrowed _ _ _ _

/-- The second product's output is the reference's second product. -/
theorem product_W8 :
    W8 m ρ c (Proc.devRef .tc main_v52)
      = val_main_v48 (F := Ideal) (features m c) (edges m c) (weight1 m c) (bias1 m c) (weight2 m c) := by
  rw [ref_product2]
  refine (W8_arr m ρ c 2).trans ?_
  rw [SecondProduct.result (V7 m ρ) c]
  show matProd (W7 m ρ c (Proc.devRef .tc main_v50) : FVec Ideal S50000x256 .bf16)
    (W7 m ρ c (Proc.devRef .tc main_v51) : FVec Ideal S256x128 .bf16) = _
  rw [hidden_W7 m ρ c (product_W4 m ρ c), weight2_W7]
  exact matProd_narrowed _ _ _ _

/-- The last step over any second layer `H`: entry i of "narrow, multiply, add the bias row" is entry i of the product
    plus the bias at i's column, which is where the reference's two broadcasts of the bias vector read it. -/
theorem last_entry (H : FVec Ideal S50000x128 .f32) (Wp : FVec Ideal S128x768 .f32) (bp : FVec Ideal S768 .f32)
    (i : S50000x768.Idx) :
    Projection.whole (truncf .bf16 H bitsLt_bf16_f32) (truncf .bf16 Wp bitsLt_bf16_f32)
        (shapeCast S1x768 bp shapeCasts_S768_S1x768) i
      = FloatOps.addf (matProd H Wp i) (bp (idx_main_v89 (idx_main_v90 i))) := by
  obtain ⟨p, q, rfl⟩ : ∃ (p : Fin 50000) (q : Fin 768), i = ix2 p q := ⟨i 0, i 1, eq_ix2 i⟩
  show matProd (truncf .bf16 H bitsLt_bf16_f32) (truncf .bf16 Wp bitsLt_bf16_f32) (ix2 p q)
      + shapeCast S1x768 bp shapeCasts_S768_S1x768 (ix2 (0 : Fin 1) q)
    = matProd H Wp (ix2 p q) + bp (idx_main_v89 (idx_main_v90 (ix2 p q)))
  have hq : idx_main_v89 (idx_main_v90 (ix2 p q)) = ix1 q := funext fun a => by
    match a with
    | ⟨0, _⟩ => rfl
  rw [shapeCast_a_1a_apply, matProd_narrowed, hq]

/-- THE RESULT: what the kernel's result buffer holds at the return is the reference's last stage of the arguments. -/
theorem result_W10 :
    W10 m ρ c (Proc.devRef .tc main_v72)
      = val_main_v91 (F := Ideal) (features m c) (edges m c) (weight1 m c) (bias1 m c) (weight2 m c) (bias2 m c)
          (weightP m c) (biasP m c) := by
  refine (W10_arr m ρ c 3).trans ?_
  rw [Projection.result (V9 m ρ) c]
  show Projection.whole (W9 m ρ c (Proc.devRef .tc main_v69) : FVec Ideal S50000x128 .bf16)
    (W9 m ρ c (Proc.devRef .tc main_v70) : FVec Ideal S128x768 .bf16)
    (W9 m ρ c (Proc.devRef .tc main_v71) : FVec Ideal S1x768 .f32) = _
  rw [hidden_W9 m ρ c (product_W8 m ρ c), weightP_W9, biasP_W9]
  funext i
  rw [val_main_v91_apply, ref_product3, val_main_v90_apply, val_main_v89_apply]
  -- the second layer enters both sides only as an array: name it
  generalize val_main_v87 (F := Ideal) (features m c) (edges m c) (weight1 m c) (bias1 m c) (weight2 m c) (bias2 m c) = H
  exact last_entry H (weightP m c) (biasP m c) i

end Cert.KernelIdeal.Result

end
-- ==== Proof.RefValue.lean ====
/-
  The reference's result as the last of its stages.

  The reference is one straight line of 120 host operations. Its run leaves every buffer at the fold of the line over the
  launch contents; read at the result buffer, the fold is the operations' composed term of the eight arguments, and that term
  is the stage `val_main_v91` — the sum of the last product and the broadcast bias, each operand again a stage of the
  arguments. The reading goes through the two typed-reference calls (the guarded reciprocal square root's `where`, the
  rectifier) and into the operands of the two-operand concatenates that append the self-loops to the edge list.
-/
import proofs.«140826_j4827543241130_1_alg».proof.Proof.RefRun
import proofs.«140826_j4827543241130_1_alg».proof.Proof.RefRead
import proofs.«140826_j4827543241130_1_alg».proof.Proof.LibReadThrough

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 16384 in
set_option maxHeartbeats 48000000 in
/-- The fold of the reference's operations, read at its result buffer, is the last stage of the arguments. -/
theorem result_eq (m : (ℓ : Loc nD τ sig) → Buf (Elt F) ℓ) (c : Dev nD) :
    after (ops (F := F)) (launchContents m c) (Proc.devRef .tc main_v91)
      = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_through
  rfl

set_option maxRecDepth 16384 in
set_option maxHeartbeats 48000000 in
/-- The reference's run with its result stated as that stage: every weakly fair execution terminates, the result buffer
    holds `val_main_v91` of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v91).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_fold m ρ)

end Cert.ReferenceIdeal.Stages

end
-- ==== Proof.lean ====
/-
  A two-layer graph convolution followed by a linear projection, computed by a kernel with three matrix-unit products
  and by a plain reference, give the same result on the extended reals.

  Both programs build the same edge lists (the edge index with one self-loop per node appended), the same degrees,
  guarded reciprocal square roots and edge weights, and then apply, twice, "multiply by a weight matrix, gather the rows
  at the sources, weigh them, add them up per target, add a bias" (rectifying after the first layer), and finally
  multiply by the projection matrix and add its bias. The kernel's three matrix products run tile by tile over the rows
  on operands narrowed to bf16; the reference's are whole dot products. At the exact instance a narrowing is the identity
  and a row-tiled product into a zero accumulator is the whole product (Proof/FirstProduct.lean, SecondProduct.lean,
  Projection.lean); the host operations in between are the same on both sides, operation for operation
  (Proof/KernelEntry.lean, KernelLayer1.lean, KernelLayer2.lean); so the kernel's result buffer ends at the reference's
  last stage of the arguments (Proof/KernelValue.lean), which is what the reference's own run leaves in its result buffer
  (Proof/RefValue.lean). The kernel's run with its result named is Proof/KernelRun.lean. The idealization rewrote no
  operation, so there is nothing to preserve beyond the program's own text.
-/
import proofs.«140826_j4827543241130_1_alg».proof.Defs
import proofs.«140826_j4827543241130_1_alg».proof.Proof.Gen.Kernel
import proofs.«140826_j4827543241130_1_alg».proof.Proof.Gen.Kernel.Frame
import proofs.«140826_j4827543241130_1_alg».proof.Proof.Gen.KernelIdeal
import proofs.«140826_j4827543241130_1_alg».proof.Proof.Gen.KernelIdeal.Frame
import proofs.«140826_j4827543241130_1_alg».proof.Proof.Gen.ReferenceIdeal
import proofs.«140826_j4827543241130_1_alg».proof.Proof.Gen.Pre_finite_inputs
import proofs.«140826_j4827543241130_1_alg».proof.Proof.KernelRun
import proofs.«140826_j4827543241130_1_alg».proof.Proof.KernelValue
import proofs.«140826_j4827543241130_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the statement about the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The idealization changed no operation. -/
theorem preserves : Cert.preserves_Kernel_KernelIdeal := trivial

/-- From memories that agree on the eight arguments both programs end with the reference's last stage of those
    arguments in their result buffers: the kernel by `Result.result_W10`, the reference by its own run. -/
theorem algebraic : Cert.algebraic_KernelIdeal_ReferenceIdeal := by
  intro m ρ m' ρ' _ hagree
  refine ⟨fun c => Cert.ReferenceIdeal.ReadP.val_main_v91 (F := Ideal) (Cert.KernelIdeal.Entry.features m c) (Cert.KernelIdeal.Entry.edges m c) (Cert.KernelIdeal.Entry.weight1 m c) (Cert.KernelIdeal.Entry.bias1 m c) (Cert.KernelIdeal.Entry.weight2 m c) (Cert.KernelIdeal.Entry.bias2 m c) (Cert.KernelIdeal.Entry.weightP m c) (Cert.KernelIdeal.Entry.biasP m c), ?_, ?_⟩
  · exact (θ_run Cert.KernelIdeal.defs _ _).mono
      (fun _ h c => ⟨(h c).1.trans (Cert.KernelIdeal.Result.result_W10 m ρ c), (h c).2⟩)
      (Cert.KernelIdeal.Named.run m ρ)
  · refine (θ_run Cert.ReferenceIdeal.defs _ _).mono (fun _ h c => ⟨(h c).1.trans ?_, (h c).2⟩)
      (Cert.ReferenceIdeal.Stages.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
